-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Kernel.lean ====
abbrev S4096x1024 : Shape := ⟨2, ![4096, 1024]⟩
abbrev S4096 : Shape := ⟨1, ![4096]⟩
abbrev S1024x4096 : Shape := ⟨2, ![1024, 4096]⟩
abbrev S256x1024 : Shape := ⟨2, ![256, 1024]⟩
abbrev S256x4096 : Shape := ⟨2, ![256, 4096]⟩
abbrev S1x4096 : Shape := ⟨2, ![1, 4096]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S1024x4096, .f32⟩
  | .hbm, ⟨7, _⟩ => ⟨S1024x4096, .bf16⟩
  | .hbm, ⟨8, _⟩ => ⟨S1024x4096, .f32⟩
  | .hbm, ⟨9, _⟩ => ⟨S1024x4096, .bf16⟩
  | .hbm, ⟨10, _⟩ => ⟨S4096x1024, .f32⟩
  | .hbm, ⟨11, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4096x1024_S1024x4096_1_0 : S4096x1024.Transposes [1, 0] S1024x4096
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S1024x4096, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Cell.lean ====
/-
  One step of an LSTM cell on a batch of 4096 rows with hidden width 1024, written on the extended reals.

  For a row `b` and a gate column `j` (0 ≤ j < 4096) the pre-activation is
      pre b j = (Σ_k h[b,k] · Wh[j,k] + Σ_k x[b,k] · Wx[j,k]) + bh[j].
  The four gates take the four consecutive groups of 1024 columns: input (0 …), forget (1024 …), candidate
  (2048 …), output (3072 …). With σ the logistic function,
      c'[b,q] = σ(pre b (q + 1024)) · c[b,q] + σ(pre b q) · tanh(pre b (q + 2048)),
      h'[b,q] = σ(pre b (q + 3072)) · tanh(c'[b,q]).
  Every operation is the exact one on the extended reals; nothing here needs the inputs to be finite.
-/
import Idealize.ShloMosaic.PureOps.Ideal
import Idealize.ShloMosaic.Lib.ValueIdx

noncomputable section

open scoped BigOperators

namespace Cert.Cell

open Idealize.ShloMosaic Idealize.ShloMosaic.ValueIdx

/-- The shape of the batch arrays and of the two weight matrices. -/
abbrev Arr : Shape := ⟨2, ![4096, 1024]⟩
/-- The shape of the bias. -/
abbrev Bias : Shape := ⟨1, ![4096]⟩

/-- Column `q` of the input gate's group. -/
abbrev colI (q : Fin 1024) : Fin 4096 := ⟨q.val, by have := q.isLt; omega⟩
/-- Column `q` of the forget gate's group. -/
abbrev colF (q : Fin 1024) : Fin 4096 := ⟨q.val + 1024, by have := q.isLt; omega⟩
/-- Column `q` of the candidate's group. -/
abbrev colG (q : Fin 1024) : Fin 4096 := ⟨q.val + 2048, by have := q.isLt; omega⟩
/-- Column `q` of the output gate's group. -/
abbrev colO (q : Fin 1024) : Fin 4096 := ⟨q.val + 3072, by have := q.isLt; omega⟩

/-- The pre-activation of gate column `j` in row `b`: the hidden state's product with row `j` of `Wh`, plus the
    input's product with row `j` of `Wx`, plus the bias. -/
def pre (x h Wh : Arr.Idx → EReal) (bh : Bias.Idx → EReal) (Wx : Arr.Idx → EReal) (b j : Fin 4096) : EReal :=
  (∑ k : Fin 1024, h (ix2 b k) * Wh (ix2 j k)) + (∑ k : Fin 1024, x (ix2 b k) * Wx (ix2 j k)) + bh (ix1 j)

/-- The next cell state at `(b, q)`. -/
def cNext (x h c Wh : Arr.Idx → EReal) (bh : Bias.Idx → EReal) (Wx : Arr.Idx → EReal) (b : Fin 4096) (q : Fin 1024) : EReal :=
  Ideal.logistic (pre x h Wh bh Wx b (colF q)) * c (ix2 b q)
    + Ideal.logistic (pre x h Wh bh Wx b (colI q)) * Ideal.tanh (pre x h Wh bh Wx b (colG q))

/-- The next hidden state at `(b, q)`. -/
def hNext (x h c Wh : Arr.Idx → EReal) (bh : Bias.Idx → EReal) (Wx : Arr.Idx → EReal) (b : Fin 4096) (q : Fin 1024) : EReal :=
  Ideal.logistic (pre x h Wh bh Wx b (colO q)) * Ideal.tanh (cNext x h c Wh bh Wx b q)

/-- The next cell state as an array. -/
def cNextArr (x h c Wh : Arr.Idx → EReal) (bh : Bias.Idx → EReal) (Wx : Arr.Idx → EReal) : Arr.Idx → EReal :=
  fun i => cNext x h c Wh bh Wx (i 0) (i 1)

/-- The next hidden state as an array. -/
def hNextArr (x h c Wh : Arr.Idx → EReal) (bh : Bias.Idx → EReal) (Wx : Arr.Idx → EReal) : Arr.Idx → EReal :=
  fun i => hNext x h c Wh bh Wx (i 0) (i 1)

theorem cNextArr_ix2 (x h c Wh : Arr.Idx → EReal) (bh : Bias.Idx → EReal) (Wx : Arr.Idx → EReal) (b : Fin 4096) (q : Fin 1024) :
    cNextArr x h c Wh bh Wx (ix2 b q) = cNext x h c Wh bh Wx b q := rfl

theorem hNextArr_ix2 (x h c Wh : Arr.Idx → EReal) (bh : Bias.Idx → EReal) (Wx : Arr.Idx → EReal) (b : Fin 4096) (q : Fin 1024) :
    hNextArr x h c Wh bh Wx (ix2 b q) = hNext x h c Wh bh Wx b q := rfl

/-- The bit pattern of the f32 number one denotes the extended real one. -/
theorem one_f32 : Ideal.ofBits .f32 0x3F800000#32 = 1 := by simp [Ideal.ofBits, Ideal.ieee, -EReal.coe_mul]; norm_num

/-- The logistic function written out with a quotient, a sum and an exponential is the logistic function. -/
theorem logistic_spelt (a : EReal) : Ideal.div 1 (1 + Ideal.exp (-a)) = Ideal.logistic a := rfl

end Cert.Cell

end
-- ==== Proof.KernelCell.lean ====
/-
  What one grid point of the kernel computes, read entry by entry.

  At a grid point the body holds a block of 256 rows of `x`, `h` and `c`, the two weight matrices already transposed
  (1024 × 4096, so entry `(k, j)` of the staged matrix is entry `(j, k)` of the weight) and the bias. Its table of
  pre-activations for those rows is two matrix products accumulated from zero, added, plus the bias broadcast along the
  rows: entry `(r, j)` is `(Σ_k h[r,k] · WhT[k,j] + Σ_k x[r,k] · WxT[k,j]) + bh[j]`, the cell's pre-activation of column
  `j` in the row of the batch that local row `r` is. Rounding the operands to bf16 is the identity on extended reals.
  The two stored blocks then are the cell's next cell state and next hidden state at those rows.
-/
import proofs.«144559_j41764261986629_2_alg».proof.Proof.Gen.KernelIdeal.Value
import proofs.«144559_j41764261986629_2_alg».proof.Proof.Cell
import Idealize.ShloMosaic.Lib.ValueLayout
import Idealize.ShloMosaic.PureOps.Ideal.Laws

noncomputable section

open scoped BigOperators

namespace Cert.KernelIdeal.KernelCell

open Cert.KernelIdeal Cert.KernelIdeal.Gen Cert.Cell
open Idealize.ShloMosaic Idealize.ShloMosaic.ValueIdx

/-- The left operand's index of the block product at output entry `i`: its row is `i`'s row. -/
theorem lhs_row (i : S256x4096.Idx) (q : dot_S256x1024_S1024x4096_S256x4096_1_0_0_1_n_n.contr.Idx) : (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide),
    dif_pos (show (0 : Fin S256x1024.rank) ∈ dot_S256x1024_S1024x4096_S256x4096_1_0_0_1_n_n.lhsNonContracting by decide)]
  rfl

/-- The right operand's index of the block product at output entry `i`: its column is `i`'s column. -/
theorem rhs_col (i : S256x4096.Idx) (q : dot_S256x1024_S1024x4096_S256x4096_1_0_0_1_n_n.contr.Idx) : (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide),
    dif_pos (show (1 : Fin S1024x4096.rank) ∈ dot_S256x1024_S1024x4096_S256x4096_1_0_0_1_n_n.rhsNonContracting by decide)]
  rfl

/-- A 256 × 1024 block times a 1024 × 4096 matrix, accumulated from zero: entry `(r, j)` is the sum over the 1024
    contracted positions of the products. -/
theorem block_product (L : FVec Ideal S256x1024 .bf16) (R : FVec Ideal S1024x4096 .bf16) (r : Fin 256) (j : Fin 4096) :
    matmul dot_S256x1024_S1024x4096_S256x4096_1_0_0_1_n_n none L R (constant S256x4096 .f32 0x00000000#32) (ix2 r j)
      = ∑ k : Fin 1024, L (ix2 r k) * R (ix2 k j) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 r j) ((contrEquiv1 dot_S256x1024_S1024x4096_S256x4096_1_0_0_1_n_n 1024 rfl rfl).symm k) = ix2 r k := funext fun a => Fin.ext (by
    match a with
    | ⟨0, _⟩ => exact lhs_row _ _
    | ⟨1, _⟩ => exact (dot_S256x1024_S1024x4096_S256x4096_1_0_0_1_n_n.lhsIdx_val_of_single rfl _ _).trans hk)
  have er : dot_S256x1024_S1024x4096_S256x4096_1_0_0_1_n_n.rhsIdx (ix2 r j) ((contrEquiv1 dot_S256x1024_S1024x4096_S256x4096_1_0_0_1_n_n 1024 rfl rfl).symm k) = ix2 k j := funext fun a => Fin.ext (by
    match a with
    | ⟨0, _⟩ => exact (dot_S256x1024_S1024x4096_S256x4096_1_0_0_1_n_n.rhsIdx_val_of_single rfl _ _).trans hk
    | ⟨1, _⟩ => exact rhs_col _ _)
  rw [el, er]

/-- Entry `(r, j)` of the body's table of pre-activations, from the loaded blocks. -/
theorem table_apply (P0 P1 : Vec Ideal S256x1024 .f32) (P2 P3 : Vec Ideal S1024x4096 .bf16) (P4 : Vec Ideal S4096 .f32)
    (r : Fin 256) (j : Fin 4096) :
    k0_pay1 P0 P1 P2 P3 P4 (ix2 r j)
      = (∑ k : Fin 1024, P1 (ix2 r k) * P2 (ix2 k j)) + (∑ k : Fin 1024, P0 (ix2 r k) * P3 (ix2 k j)) + P4 (ix1 j) := by
  unfold k0_pay1
  show (matmul (F := Ideal) dot_S256x1024_S1024x4096_S256x4096_1_0_0_1_n_n none (truncf (F := Ideal) .bf16 P1 bitsLt_bf16_f32) (shapeCast S1024x4096 P2 shapeCasts_S1024x4096_S1024x4096) (constant (F := Ideal) S256x4096 .f32 0x00000000#32)) (ix2 r j)
      + (matmul (F := Ideal) dot_S256x1024_S1024x4096_S256x4096_1_0_0_1_n_n none (truncf (F := Ideal) .bf16 P0 bitsLt_bf16_f32) (shapeCast S1024x4096 P3 shapeCasts_S1024x4096_S1024x4096) (constant (F := Ideal) S256x4096 .f32 0x00000000#32)) (ix2 r j)
      + (broadcastTo S256x4096 (shapeCast S1x4096 P4 shapeCasts_S4096_S1x4096) broadcasts_S1x4096_S256x4096) (ix2 r j) = _
  rw [shapeCast_self, shapeCast_self, block_product, block_product, broadcastTo_1b_ab_apply, shapeCast_a_1a_apply]
  rfl

/-- The body's table at a row that is row `b` of the batch: the cell's pre-activations of that row. The hypotheses say
    what the loaded blocks are as entries of the argument arrays. -/
theorem table_eq_pre (x h Wh : Arr.Idx → EReal) (bh : Bias.Idx → EReal) (Wx : Arr.Idx → EReal)
    (P0 P1 : Vec Ideal S256x1024 .f32) (P2 P3 : Vec Ideal S1024x4096 .bf16) (P4 : Vec Ideal S4096 .f32)
    (b : Fin 4096) (r : Fin 256)
    (h0 : ∀ k : Fin 1024, P0 (ix2 r k) = x (ix2 b k)) (h1 : ∀ k : Fin 1024, P1 (ix2 r k) = h (ix2 b k))
    (h2 : ∀ (k : Fin 1024) (j : Fin 4096), P2 (ix2 k j) = Wh (ix2 j k))
    (h3 : ∀ (k : Fin 1024) (j : Fin 4096), P3 (ix2 k j) = Wx (ix2 j k))
    (h4 : ∀ j : Fin 4096, P4 (ix1 j) = bh (ix1 j)) (j : Fin 4096) :
    k0_pay1 P0 P1 P2 P3 P4 (ix2 r j) = pre x h Wh bh Wx b j := by
  rw [table_apply]
  unfold pre
  simp only [h0, h1, h2, h3, h4]

/-- The block the body stores as the next cell state, at local row `r` and column `q`. -/
theorem cell_block (x h c Wh : Arr.Idx → EReal) (bh : Bias.Idx → EReal) (Wx : Arr.Idx → EReal)
    (P0 P1 : Vec Ideal S256x1024 .f32) (P2 P3 : Vec Ideal S1024x4096 .bf16) (P4 : Vec Ideal S4096 .f32)
    (P5 : Vec Ideal S256x1024 .f32) (b : Fin 4096) (r : Fin 256)
    (h0 : ∀ k : Fin 1024, P0 (ix2 r k) = x (ix2 b k)) (h1 : ∀ k : Fin 1024, P1 (ix2 r k) = h (ix2 b k))
    (h2 : ∀ (k : Fin 1024) (j : Fin 4096), P2 (ix2 k j) = Wh (ix2 j k))
    (h3 : ∀ (k : Fin 1024) (j : Fin 4096), P3 (ix2 k j) = Wx (ix2 j k))
    (h4 : ∀ j : Fin 4096, P4 (ix1 j) = bh (ix1 j)) (h5 : ∀ q : Fin 1024, P5 (ix2 r q) = c (ix2 b q)) (q : Fin 1024) :
    Value.E7 P0 P1 P2 P3 P4 P5 (ix2 r q) = cNext x h c Wh bh Wx b q := by
  have ef : Value.ix7_0 (ix2 r q) = ix2 r (colF q) := funext fun a => by match a with | ⟨0, _⟩ => rfl | ⟨1, _⟩ => rfl
  have ec : Value.ix7_1 (ix2 r q) = ix2 r q := funext fun a => by match a with | ⟨0, _⟩ => rfl | ⟨1, _⟩ => rfl
  have ei : Value.ix7_2 (ix2 r q) = ix2 r (colI q) := funext fun a => by match a with | ⟨0, _⟩ => rfl | ⟨1, _⟩ => rfl
  have eg : Value.ix7_3 (ix2 r q) = ix2 r (colG q) := funext fun a => by match a with | ⟨0, _⟩ => rfl | ⟨1, _⟩ => rfl
  show FloatOps.addf (FloatOps.mulf (FloatOps.logistic ((k0_pay1 P0 P1 P2 P3 P4) (Value.ix7_0 (ix2 r q)))) (P5 (Value.ix7_1 (ix2 r q))))
      (FloatOps.mulf (FloatOps.logistic ((k0_pay1 P0 P1 P2 P3 P4) (Value.ix7_2 (ix2 r q)))) (FloatOps.tanh ((k0_pay1 P0 P1 P2 P3 P4) (Value.ix7_3 (ix2 r q))))) = _
  rw [ef, ec, ei, eg, table_eq_pre x h Wh bh Wx P0 P1 P2 P3 P4 b r h0 h1 h2 h3 h4, table_eq_pre x h Wh bh Wx P0 P1 P2 P3 P4 b r h0 h1 h2 h3 h4,
    table_eq_pre x h Wh bh Wx P0 P1 P2 P3 P4 b r h0 h1 h2 h3 h4, h5]
  rfl

/-- The block the body stores as the next hidden state, at local row `r` and column `q`. -/
theorem hidden_block (x h c Wh : Arr.Idx → EReal) (bh : Bias.Idx → EReal) (Wx : Arr.Idx → EReal)
    (P0 P1 : Vec Ideal S256x1024 .f32) (P2 P3 : Vec Ideal S1024x4096 .bf16) (P4 : Vec Ideal S4096 .f32)
    (P5 : Vec Ideal S256x1024 .f32) (b : Fin 4096) (r : Fin 256)
    (h0 : ∀ k : Fin 1024, P0 (ix2 r k) = x (ix2 b k)) (h1 : ∀ k : Fin 1024, P1 (ix2 r k) = h (ix2 b k))
    (h2 : ∀ (k : Fin 1024) (j : Fin 4096), P2 (ix2 k j) = Wh (ix2 j k))
    (h3 : ∀ (k : Fin 1024) (j : Fin 4096), P3 (ix2 k j) = Wx (ix2 j k))
    (h4 : ∀ j : Fin 4096, P4 (ix1 j) = bh (ix1 j)) (h5 : ∀ q : Fin 1024, P5 (ix2 r q) = c (ix2 b q)) (q : Fin 1024) :
    Value.E6 P0 P1 P2 P3 P4 P5 (ix2 r q) = hNext x h c Wh bh Wx b q := by
  have eo : Value.ix6_0 (ix2 r q) = ix2 r (colO q) := funext fun a => by match a with | ⟨0, _⟩ => rfl | ⟨1, _⟩ => rfl
  have ef : Value.ix6_1 (ix2 r q) = ix2 r (colF q) := funext fun a => by match a with | ⟨0, _⟩ => rfl | ⟨1, _⟩ => rfl
  have ec : Value.ix6_2 (ix2 r q) = ix2 r q := funext fun a => by match a with | ⟨0, _⟩ => rfl | ⟨1, _⟩ => rfl
  have ei : Value.ix6_3 (ix2 r q) = ix2 r (colI q) := funext fun a => by match a with | ⟨0, _⟩ => rfl | ⟨1, _⟩ => rfl
  have eg : Value.ix6_4 (ix2 r q) = ix2 r (colG q) := funext fun a => by match a with | ⟨0, _⟩ => rfl | ⟨1, _⟩ => rfl
  show FloatOps.mulf (FloatOps.logistic ((k0_pay1 P0 P1 P2 P3 P4) (Value.ix6_0 (ix2 r q))))
      (FloatOps.tanh (FloatOps.addf (FloatOps.mulf (FloatOps.logistic ((k0_pay1 P0 P1 P2 P3 P4) (Value.ix6_1 (ix2 r q)))) (P5 (Value.ix6_2 (ix2 r q))))
        (FloatOps.mulf (FloatOps.logistic ((k0_pay1 P0 P1 P2 P3 P4) (Value.ix6_3 (ix2 r q)))) (FloatOps.tanh ((k0_pay1 P0 P1 P2 P3 P4) (Value.ix6_4 (ix2 r q))))))) = _
  rw [eo, ef, ec, ei, eg, table_eq_pre x h Wh bh Wx P0 P1 P2 P3 P4 b r h0 h1 h2 h3 h4, table_eq_pre x h Wh bh Wx P0 P1 P2 P3 P4 b r h0 h1 h2 h3 h4,
    table_eq_pre x h Wh bh Wx P0 P1 P2 P3 P4 b r h0 h1 h2 h3 h4, table_eq_pre x h Wh bh Wx P0 P1 P2 P3 P4 b r h0 h1 h2 h3 h4, h5]
  rfl

end Cert.KernelIdeal.KernelCell

end
-- ==== Proof.BlockEntry.lean ====
/-
  From one row of a block to one entry of the whole arrays.

  Grid point `n` (0 ≤ n < 16) holds rows `256·n … 256·n + 255` of `x`, `h` and `c`, the whole of both staged weight
  matrices and the whole bias. So entry `(r, q)` of the block it stores is the cell's value at row `256·n + r` of the
  batch and column `q`: this file restates the two block lemmas with the array index of the stored entry as a variable,
  which is the form the blocks are glued in.
-/
import proofs.«144559_j41764261986629_2_alg».proof.Proof.KernelCell

noncomputable section

namespace Cert.KernelIdeal.KernelCell

open Cert.KernelIdeal Cert.KernelIdeal.Gen Cert.Cell
open Idealize.ShloMosaic Idealize.ShloMosaic.ValueIdx

/-- The stored next-cell-state block of grid point `n` at block index `y` is the cell's next cell state at the array
    index `i` whose row is `256·n` plus `y`'s row and whose column is `y`'s. -/
theorem cell_entry (x h c Wh : Arr.Idx → EReal) (bh : Bias.Idx → EReal) (Wx : Arr.Idx → EReal)
    (P0 P1 : Vec Ideal S256x1024 .f32) (P2 P3 : Vec Ideal S1024x4096 .bf16) (P4 : Vec Ideal S4096 .f32)
    (P5 : Vec Ideal S256x1024 .f32) (n : Nat)
    (h0 : ∀ (r : Fin 256) (k : Fin 1024) (b : Fin 4096), b.val = n * 256 + r.val → P0 (ix2 r k) = x (ix2 b k))
    (h1 : ∀ (r : Fin 256) (k : Fin 1024) (b : Fin 4096), b.val = n * 256 + r.val → P1 (ix2 r k) = h (ix2 b k))
    (h2 : ∀ (k : Fin 1024) (j : Fin 4096), P2 (ix2 k j) = Wh (ix2 j k))
    (h3 : ∀ (k : Fin 1024) (j : Fin 4096), P3 (ix2 k j) = Wx (ix2 j k))
    (h4 : ∀ j : Fin 4096, P4 (ix1 j) = bh (ix1 j))
    (h5 : ∀ (r : Fin 256) (k : Fin 1024) (b : Fin 4096), b.val = n * 256 + r.val → P5 (ix2 r k) = c (ix2 b k))
    (y : S256x1024.Idx) (i : Arr.Idx) (hi0 : (i 0).val = n * 256 + (y 0).val) (hi1 : (i 1).val = (y 1).val) :
    Value.E7 P0 P1 P2 P3 P4 P5 y = cNextArr x h c Wh bh Wx i := by
  obtain ⟨r, q, rfl⟩ : ∃ (r : Fin 256) (q : Fin 1024), y = ix2 r q := ⟨y 0, y 1, eq_ix2 y⟩
  obtain ⟨b, q', rfl⟩ : ∃ (b : Fin 4096) (q' : Fin 1024), i = ix2 b q' := ⟨i 0, i 1, eq_ix2 i⟩
  have hb : b.val = n * 256 + r.val := hi0
  obtain rfl : q' = q := Fin.ext hi1
  rw [cNextArr_ix2]
  exact cell_block x h c Wh bh Wx P0 P1 P2 P3 P4 P5 b r (fun k => h0 r k b hb) (fun k => h1 r k b hb) h2 h3 h4
    (fun k => h5 r k b hb) q'

/-- The stored next-hidden-state block of grid point `n` at block index `y` is the cell's next hidden state at the
    array index `i` whose row is `256·n` plus `y`'s row and whose column is `y`'s. -/
theorem hidden_entry (x h c Wh : Arr.Idx → EReal) (bh : Bias.Idx → EReal) (Wx : Arr.Idx → EReal)
    (P0 P1 : Vec Ideal S256x1024 .f32) (P2 P3 : Vec Ideal S1024x4096 .bf16) (P4 : Vec Ideal S4096 .f32)
    (P5 : Vec Ideal S256x1024 .f32) (n : Nat)
    (h0 : ∀ (r : Fin 256) (k : Fin 1024) (b : Fin 4096), b.val = n * 256 + r.val → P0 (ix2 r k) = x (ix2 b k))
    (h1 : ∀ (r : Fin 256) (k : Fin 1024) (b : Fin 4096), b.val = n * 256 + r.val → P1 (ix2 r k) = h (ix2 b k))
    (h2 : ∀ (k : Fin 1024) (j : Fin 4096), P2 (ix2 k j) = Wh (ix2 j k))
    (h3 : ∀ (k : Fin 1024) (j : Fin 4096), P3 (ix2 k j) = Wx (ix2 j k))
    (h4 : ∀ j : Fin 4096, P4 (ix1 j) = bh (ix1 j))
    (h5 : ∀ (r : Fin 256) (k : Fin 1024) (b : Fin 4096), b.val = n * 256 + r.val → P5 (ix2 r k) = c (ix2 b k))
    (y : S256x1024.Idx) (i : Arr.Idx) (hi0 : (i 0).val = n * 256 + (y 0).val) (hi1 : (i 1).val = (y 1).val) :
    Value.E6 P0 P1 P2 P3 P4 P5 y = hNextArr x h c Wh bh Wx i := by
  obtain ⟨r, q, rfl⟩ : ∃ (r : Fin 256) (q : Fin 1024), y = ix2 r q := ⟨y 0, y 1, eq_ix2 y⟩
  obtain ⟨b, q', rfl⟩ : ∃ (b : Fin 4096) (q' : Fin 1024), i = ix2 b q' := ⟨i 0, i 1, eq_ix2 i⟩
  have hb : b.val = n * 256 + r.val := hi0
  obtain rfl : q' = q := Fin.ext hi1
  rw [hNextArr_ix2]
  exact hidden_block x h c Wh bh Wx P0 P1 P2 P3 P4 P5 b r (fun k => h0 r k b hb) (fun k => h1 r k b hb) h2 h3 h4
    (fun k => h5 r k b hb) q'

end Cert.KernelIdeal.KernelCell

end
-- ==== Proof.KernelRun.lean ====
/-
  The kernel's run, read as whole arrays.

  The grid has 16 points. Point `t` stages rows `256·t … 256·t + 255` of `x`, `h` and `c`, the whole of the two weight
  matrices as the host prepared them (each transposed, so the staged entry `(k, j)` is the weight's entry `(j, k)`; the
  rounding to bf16 is the identity on extended reals) and the whole bias, and it writes back rows
  `256·t … 256·t + 255` of the two results. Each written block is the block of the cell's next cell state (next hidden
  state) at those rows, and the 16 row blocks cover all 4096 rows, so after the run the two result arrays are the cell's
  two arrays.
-/
import proofs.«144559_j41764261986629_2_alg».proof.Proof.BlockEntry
import Idealize.ShloMosaic.Lib.Pipeline.Value
import Idealize.ShloMosaic.Lib.StableHlo.Run
import Idealize.ShloMosaic.Lib.Tactic

noncomputable section

namespace Cert.KernelIdeal.KernelRun

open Cert.KernelIdeal Cert.KernelIdeal.Gen Cert.Cell Cert.KernelIdeal.KernelCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The cell's next cell state of the six argument arrays as launched. -/
abbrev cellOf (c : Dev nD) : Arr.Idx → EReal :=
  cNextArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The cell's next hidden state of the six argument arrays as launched. -/
abbrev hiddenOf (c : Dev nD) : Arr.Idx → EReal :=
  hNextArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The block index of every window at every grid point: the three batch inputs and the two results move down one row
    block per point, the weights and the bias stay at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The hidden weights as staged: the host transposes `Wh` and rounds it to bf16. -/
theorem staged_Wh (c : Dev nD) : (V m c main_call0_v1 : S1024x4096.Idx → EReal)
    = truncf (F := Ideal) .bf16 (transpose S1024x4096 [1, 0] (m ((c : Thread nD τ).loc main_arg3)) transposes_S4096x1024_S1024x4096_1_0) bitsLt_bf16_f32 := by
  dsimp only [Gen.V, Gen.hostOps0]; after_results; rfl

/-- The input weights as staged: the host transposes `Wx` and rounds it to bf16. -/
theorem staged_Wx (c : Dev nD) : (V m c main_call0_v3 : S1024x4096.Idx → EReal)
    = truncf (F := Ideal) .bf16 (transpose S1024x4096 [1, 0] (m ((c : Thread nD τ).loc main_arg5)) transposes_S4096x1024_S1024x4096_1_0) bitsLt_bf16_f32 := by
  dsimp only [Gen.V, Gen.hostOps0]; after_results; rfl

/-- Entry `(k, j)` of the staged hidden weights is entry `(j, k)` of `Wh`. -/
theorem staged_Wh_apply (c : Dev nD) (i : S1024x4096.Idx) (k : Fin 1024) (j : Fin 4096) (h0 : (i 0).val = k.val) (h1 : (i 1).val = j.val) :
    (V m c main_call0_v1 : S1024x4096.Idx → EReal) i = (m ((c : Thread nD τ).loc main_arg3) : Arr.Idx → EReal) (ix2 j k) := by
  rw [staged_Wh m c]
  exact transpose_apply [1, 0] _ transposes_S4096x1024_S1024x4096_1_0 i (ix2 j k) (fun b => match b with
    | ⟨0, _⟩ => h0.symm
    | ⟨1, _⟩ => h1.symm)

/-- Entry `(k, j)` of the staged input weights is entry `(j, k)` of `Wx`. -/
theorem staged_Wx_apply (c : Dev nD) (i : S1024x4096.Idx) (k : Fin 1024) (j : Fin 4096) (h0 : (i 0).val = k.val) (h1 : (i 1).val = j.val) :
    (V m c main_call0_v3 : S1024x4096.Idx → EReal) i = (m ((c : Thread nD τ).loc main_arg5) : Arr.Idx → EReal) (ix2 j k) := by
  rw [staged_Wx m c]
  exact transpose_apply [1, 0] _ transposes_S4096x1024_S1024x4096_1_0 i (ix2 j k) (fun b => match b with
    | ⟨0, _⟩ => h0.symm
    | ⟨1, _⟩ => h1.symm)

/-- Row `r` of the `x` block at point `t` is row `256·t + r` of `x`. -/
theorem blk_x (c : Dev nD) (t : Fin cfg0.N) (r : Fin 256) (k : Fin 1024) (b : Fin 4096) (hb : b.val = t.val * 256 + r.val) :
    (iblk m c 0 t : Vec Ideal S256x1024 .f32) (ix2 r k) = (m ((c : Thread nD τ).loc main_arg0) : Arr.Idx → EReal) (ix2 b k) := by
  obtain ⟨e0, e1, -⟩ := idx_facts t
  unfold iblk
  rw [View.read_apply]
  show V m c main_arg0 _ = _
  rw [V_main_arg0 m c]
  refine congrArg (m ((c : Thread nD τ).loc main_arg0) : Arr.Idx → EReal) (funext fun a => Fin.ext ?_)
  match a with
  | ⟨0, _⟩ => show win0_0.index t (0 : Fin 2) * 256 + 1 * r.val = b.val; rw [e0, hb]; omega
  | ⟨1, _⟩ => show win0_0.index t (1 : Fin 2) * 1024 + 1 * k.val = k.val; rw [e1]; omega

/-- Row `r` of the `h` block at point `t` is row `256·t + r` of `h`. -/
theorem blk_h (c : Dev nD) (t : Fin cfg0.N) (r : Fin 256) (k : Fin 1024) (b : Fin 4096) (hb : b.val = t.val * 256 + r.val) :
    (iblk m c 1 t : Vec Ideal S256x1024 .f32) (ix2 r k) = (m ((c : Thread nD τ).loc main_arg1) : Arr.Idx → EReal) (ix2 b k) := by
  obtain ⟨-, -, e0, e1, -⟩ := idx_facts t
  unfold iblk
  rw [View.read_apply]
  show V m c main_arg1 _ = _
  rw [V_main_arg1 m c]
  refine congrArg (m ((c : Thread nD τ).loc main_arg1) : Arr.Idx → EReal) (funext fun a => Fin.ext ?_)
  match a with
  | ⟨0, _⟩ => show win0_1.index t (0 : Fin 2) * 256 + 1 * r.val = b.val; rw [e0, hb]; omega
  | ⟨1, _⟩ => show win0_1.index t (1 : Fin 2) * 1024 + 1 * k.val = k.val; rw [e1]; omega

/-- Row `r` of the `c` block at point `t` is row `256·t + r` of `c`. -/
theorem blk_c (c : Dev nD) (t : Fin cfg0.N) (r : Fin 256) (k : Fin 1024) (b : Fin 4096) (hb : b.val = t.val * 256 + r.val) :
    (iblk m c 2 t : Vec Ideal S256x1024 .f32) (ix2 r k) = (m ((c : Thread nD τ).loc main_arg2) : Arr.Idx → EReal) (ix2 b k) := by
  obtain ⟨-, -, -, -, e0, e1, -⟩ := idx_facts t
  unfold iblk
  rw [View.read_apply]
  show V m c main_arg2 _ = _
  rw [V_main_arg2 m c]
  refine congrArg (m ((c : Thread nD τ).loc main_arg2) : Arr.Idx → EReal) (funext fun a => Fin.ext ?_)
  match a with
  | ⟨0, _⟩ => show win0_2.index t (0 : Fin 2) * 256 + 1 * r.val = b.val; rw [e0, hb]; omega
  | ⟨1, _⟩ => show win0_2.index t (1 : Fin 2) * 1024 + 1 * k.val = k.val; rw [e1]; omega

/-- The hidden-weight block at every point is the whole staged matrix: entry `(k, j)` is `Wh`'s entry `(j, k)`. -/
theorem blk_Wh (c : Dev nD) (t : Fin cfg0.N) (k : Fin 1024) (j : Fin 4096) :
    (iblk m c 3 t : Vec Ideal S1024x4096 .bf16) (ix2 k j) = (m ((c : Thread nD τ).loc main_arg3) : Arr.Idx → EReal) (ix2 j k) := by
  obtain ⟨-, -, -, -, -, -, e0, e1, -⟩ := idx_facts t
  unfold iblk
  rw [View.read_apply]
  exact staged_Wh_apply m c _ k j (by show win0_3.index t (0 : Fin 2) * 1024 + 1 * k.val = k.val; rw [e0]; omega)
    (by show win0_3.index t (1 : Fin 2) * 4096 + 1 * j.val = j.val; rw [e1]; omega)

/-- The input-weight block at every point is the whole staged matrix: entry `(k, j)` is `Wx`'s entry `(j, k)`. -/
theorem blk_Wx (c : Dev nD) (t : Fin cfg0.N) (k : Fin 1024) (j : Fin 4096) :
    (iblk m c 4 t : Vec Ideal S1024x4096 .bf16) (ix2 k j) = (m ((c : Thread nD τ).loc main_arg5) : Arr.Idx → EReal) (ix2 j k) := by
  obtain ⟨-, -, -, -, -, -, -, -, e0, e1, -⟩ := idx_facts t
  unfold iblk
  rw [View.read_apply]
  exact staged_Wx_apply m c _ k j (by show win0_4.index t (0 : Fin 2) * 1024 + 1 * k.val = k.val; rw [e0]; omega)
    (by show win0_4.index t (1 : Fin 2) * 4096 + 1 * j.val = j.val; rw [e1]; omega)

/-- The bias block at every point is the whole bias. -/
theorem blk_bh (c : Dev nD) (t : Fin cfg0.N) (j : Fin 4096) :
    (iblk m c 5 t : Vec Ideal S4096 .f32) (ix1 j) = (m ((c : Thread nD τ).loc main_arg4) : Bias.Idx → EReal) (ix1 j) := by
  obtain ⟨-, -, -, -, -, -, -, -, -, -, e0, -⟩ := idx_facts t
  unfold iblk
  rw [View.read_apply]
  show V m c main_arg4 _ = _
  rw [V_main_arg4 m c]
  refine congrArg (m ((c : Thread nD τ).loc main_arg4) : Bias.Idx → EReal) (funext fun a => Fin.ext ?_)
  match a with
  | ⟨0, _⟩ => show win0_5.index t (0 : Fin 1) * 4096 + 1 * j.val = j.val; rw [e0]; omega

theorem hz2 : (![0, 0] : Fin 2 → Nat) = fun _ => 0 := funext fun a => by fin_cases a <;> rfl
theorem hz1 : (![0] : Fin 1 → Nat) = fun _ => 0 := funext fun a => by fin_cases a; rfl

/-- What point `t` writes back to the next-cell-state array is block `t` of the cell's next cell state. -/
theorem flushed_cell (c : Dev nD) (t : Fin cfg0.N) :
    (dats m 0 c).flushed 7 t = ((cfg0.win 7).blk t).view.read (Elt Ideal) (cellOf m c) := by
  obtain ⟨-, -, -, -, -, -, -, -, -, -, -, -, -, e0, e1⟩ := idx_facts t
  rw [Value.flushed7]
  unfold out0_7
  simp only [View.ld_unit_zero (S := S256x1024) hz2, View.ld_unit_zero (S := S1024x4096) hz2, View.ld_unit_zero (S := S4096) hz1]
  funext y
  refine (Value.canon7_eq _ _ _ _ _ _ y).trans ?_
  rw [View.read_apply]
  refine cell_entry _ _ _ _ _ _ _ _ _ _ _ _ t.val (fun r k b hb => blk_x m c t r k b hb) (fun r k b hb => blk_h m c t r k b hb)
    (fun k j => blk_Wh m c t k j) (fun k j => blk_Wx m c t k j) (fun j => blk_bh m c t j) (fun r k b hb => blk_c m c t r k b hb)
    y _ ?_ ?_
  · show win0_7.index t (0 : Fin 2) * 256 + 1 * (y 0).val = t.val * 256 + (y 0).val; rw [e0]; omega
  · show win0_7.index t (1 : Fin 2) * 1024 + 1 * (y 1).val = (y 1).val; rw [e1]; omega

/-- What point `t` writes back to the next-hidden-state array is block `t` of the cell's next hidden state. -/
theorem flushed_hidden (c : Dev nD) (t : Fin cfg0.N) :
    (dats m 0 c).flushed 6 t = ((cfg0.win 6).blk t).view.read (Elt Ideal) (hiddenOf m c) := by
  obtain ⟨-, -, -, -, -, -, -, -, -, -, -, e0, e1, -⟩ := idx_facts t
  rw [Value.flushed6]
  unfold out0_6
  simp only [View.ld_unit_zero (S := S256x1024) hz2, View.ld_unit_zero (S := S1024x4096) hz2, View.ld_unit_zero (S := S4096) hz1]
  funext y
  refine (Value.canon6_eq _ _ _ _ _ _ y).trans ?_
  rw [View.read_apply]
  refine hidden_entry _ _ _ _ _ _ _ _ _ _ _ _ t.val (fun r k b hb => blk_x m c t r k b hb) (fun r k b hb => blk_h m c t r k b hb)
    (fun k j => blk_Wh m c t k j) (fun k j => blk_Wx m c t k j) (fun j => blk_bh m c t j) (fun r k b hb => blk_c m c t r k b hb)
    y _ ?_ ?_
  · show win0_6.index t (0 : Fin 2) * 256 + 1 * (y 0).val = t.val * 256 + (y 0).val; rw [e0]; omega
  · show win0_6.index t (1 : Fin 2) * 1024 + 1 * (y 1).val = (y 1).val; rw [e1]; omega

/-- The point whose row block holds row `n`. -/
def pointOf (n : Nat) (hn : n < 4096) : Fin cfg0.N := ⟨n / 256, by rw [show cfg0.N = 16 from N_0]; omega⟩

/-- Every entry of the next-cell-state array is in the row block of the point `row / 256`. -/
theorem cover_cell (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  refine ⟨pointOf (i 0).val hi0, flush0_7 _, ?_⟩
  obtain ⟨-, -, -, -, -, -, -, -, -, -, -, -, -, e0, e1⟩ := idx_facts (pointOf (i 0).val hi0)
  have ev : (pointOf (i 0).val hi0).val = (i 0).val / 256 := rfl
  show i ∈ ((View.whole main_v0_1).slice (win0_7.rect (pointOf (i 0).val hi0))).set
  rw [View.set_slice_whole, Rect.mem_set_unit]
  intro a
  match a with
  | ⟨0, _⟩ => show win0_7.index (pointOf (i 0).val hi0) (0 : Fin 2) * 256 ≤ (i 0).val ∧ (i 0).val < win0_7.index (pointOf (i 0).val hi0) (0 : Fin 2) * 256 + 256; rw [e0, ev]; omega
  | ⟨1, _⟩ => show win0_7.index (pointOf (i 0).val hi0) (1 : Fin 2) * 1024 ≤ (i 1).val ∧ (i 1).val < win0_7.index (pointOf (i 0).val hi0) (1 : Fin 2) * 1024 + 1024; rw [e1]; omega

/-- Every entry of the next-hidden-state array is in the row block of the point `row / 256`. -/
theorem cover_hidden (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  refine ⟨pointOf (i 0).val hi0, flush0_6 _, ?_⟩
  obtain ⟨-, -, -, -, -, -, -, -, -, -, -, e0, e1, -⟩ := idx_facts (pointOf (i 0).val hi0)
  have ev : (pointOf (i 0).val hi0).val = (i 0).val / 256 := rfl
  show i ∈ ((View.whole main_v0_0).slice (win0_6.rect (pointOf (i 0).val hi0))).set
  rw [View.set_slice_whole, Rect.mem_set_unit]
  intro a
  match a with
  | ⟨0, _⟩ => show win0_6.index (pointOf (i 0).val hi0) (0 : Fin 2) * 256 ≤ (i 0).val ∧ (i 0).val < win0_6.index (pointOf (i 0).val hi0) (0 : Fin 2) * 256 + 256; rw [e0, ev]; omega
  | ⟨1, _⟩ => show win0_6.index (pointOf (i 0).val hi0) (1 : Fin 2) * 1024 ≤ (i 1).val ∧ (i 1).val < win0_6.index (pointOf (i 0).val hi0) (1 : Fin 2) * 1024 + 1024; rw [e1]; omega

/-- After the run the next-cell-state array is the cell's next cell state. -/
theorem final_cell (c : Dev nD) : (dats m 0 c).arrAt 7 cfg0.N = cellOf m c :=
  (dats m 0 c).arrAt_eq_of_cover 7 (cellOf m c) (fun t _ => flushed_cell m c t) cover_cell

/-- After the run the next-hidden-state array is the cell's next hidden state. -/
theorem final_hidden (c : Dev nD) : (dats m 0 c).arrAt 6 cfg0.N = hiddenOf m c :=
  (dats m 0 c).arrAt_eq_of_cover 6 (hiddenOf m c) (fun t _ => flushed_hidden m c t) cover_hidden

/-- The kernel's run: every weakly fair execution terminates with the two results at the cell's two arrays and the six
    arguments as launched. -/
theorem run : θ_run defs (onTc (τ := τ) (main (F := Ideal))) ⟨m, fun _ => 0, ρ⟩ fun r => ∀ c : Dev nD,
      r.2.mem ((c : Thread nD τ).loc main_v0_0) = hiddenOf m c
      ∧ r.2.mem ((c : Thread nD τ).loc main_v0_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_hidden m c), (h c).2.1.trans (final_cell m c), (h c).2.2⟩)
    (Value.run_blocks m ρ)

end Cert.KernelIdeal.KernelRun

end
-- ==== Proof.RefCell.lean ====
/-
  The reference program computes the LSTM cell of `Cell.lean`.

  Its 4096 × 4096 table of pre-activations is `(h · Whᵀ + bh) + x · Wxᵀ`; the cell's is `(h · Whᵀ + x · Wxᵀ) + bh`. Addition
  of extended reals is commutative and associative, so the two agree at every entry, infinite ones included. The four
  gates are column slices of that table at offsets 0, 1024, 2048 and 3072; the reference spells the logistic function as
  `1 / (1 + exp (-a))`, which is its definition on the extended reals, and its constant `1.0` is the real number one.
-/
import proofs.«144559_j41764261986629_2_alg».proof.Proof.Gen.ReferenceIdeal.Read
import proofs.«144559_j41764261986629_2_alg».proof.Proof.Cell

noncomputable section

open scoped BigOperators

namespace Cert.ReferenceIdeal.RefCell

open Cert.ReferenceIdeal Cert.ReferenceIdeal.Gen Cert.ReferenceIdeal.Read Cert.Cell
open Idealize.ShloMosaic Idealize.ShloMosaic.ValueIdx

/-- Entry `(b, j)` of the reference's table of pre-activations is the cell's pre-activation of column `j` in row `b`. -/
theorem table_apply (x0 x1 x3 : Arr.Idx → EReal) (x4 : Bias.Idx → EReal) (x5 : Arr.Idx → EReal) (b j : Fin 4096) :
    val_main_v7 (F := Ideal) x0 x1 x3 x4 x5 (ix2 b j) = pre x0 x1 x3 x4 x5 b j := by
  have e1 : ∀ k : Fin 1024, lidx_main_v1 (ix2 b j) k = ix2 b k := fun k =>
    funext fun a => by match a with | ⟨0, _⟩ => rfl | ⟨1, _⟩ => rfl
  have e2 : ∀ k : Fin 1024, idx_main_v0 (ridx_main_v1 (ix2 b j) k) = ix2 j k := fun k =>
    funext fun a => by match a with | ⟨0, _⟩ => rfl | ⟨1, _⟩ => rfl
  have e3 : ∀ k : Fin 1024, lidx_main_v6 (ix2 b j) k = ix2 b k := fun k =>
    funext fun a => by match a with | ⟨0, _⟩ => rfl | ⟨1, _⟩ => rfl
  have e4 : ∀ k : Fin 1024, idx_main_v5 (ridx_main_v6 (ix2 b j) k) = ix2 j k := fun k =>
    funext fun a => by match a with | ⟨0, _⟩ => rfl | ⟨1, _⟩ => rfl
  have e5 : idx_main_v2 (idx_main_v3 (ix2 b j)) = ix1 j :=
    funext fun a => by match a with | ⟨0, _⟩ => rfl
  rw [val_main_v7_apply, val_main_v4_apply, val_main_v1_apply, val_main_v3_apply, val_main_v2_apply, val_main_v6_apply]
  simp only [val_main_v0_apply, val_main_v5_apply, e1, e2, e3, e4, e5, Ideal.addf_def]
  unfold pre
  exact add_right_comm _ _ _

/-- The column slice at offset 0 reads the table at the input gate's column. -/
theorem slice_i (x0 x1 x3 : Arr.Idx → EReal) (x4 : Bias.Idx → EReal) (x5 : Arr.Idx → EReal) (b : Fin 4096) (q : Fin 1024) :
    val_main_v8 (F := Ideal) x0 x1 x3 x4 x5 (ix2 b q) = pre x0 x1 x3 x4 x5 b (colI q) := by
  rw [val_main_v8_apply, ← table_apply]
  exact congrArg _ (funext fun a => Fin.ext (by match a with | ⟨0, _⟩ => rfl | ⟨1, _⟩ => rfl))

/-- The column slice at offset 1024 reads the table at the forget gate's column. -/
theorem slice_f (x0 x1 x3 : Arr.Idx → EReal) (x4 : Bias.Idx → EReal) (x5 : Arr.Idx → EReal) (b : Fin 4096) (q : Fin 1024) :
    val_main_v9 (F := Ideal) x0 x1 x3 x4 x5 (ix2 b q) = pre x0 x1 x3 x4 x5 b (colF q) := by
  rw [val_main_v9_apply, ← table_apply]
  exact congrArg _ (funext fun a => Fin.ext (by
    match a with
    | ⟨0, _⟩ => rfl
    | ⟨1, _⟩ => show 1024 + q.val = q.val + 1024; omega))

/-- The column slice at offset 2048 reads the table at the candidate's column. -/
theorem slice_g (x0 x1 x3 : Arr.Idx → EReal) (x4 : Bias.Idx → EReal) (x5 : Arr.Idx → EReal) (b : Fin 4096) (q : Fin 1024) :
    val_main_v10 (F := Ideal) x0 x1 x3 x4 x5 (ix2 b q) = pre x0 x1 x3 x4 x5 b (colG q) := by
  rw [val_main_v10_apply, ← table_apply]
  exact congrArg _ (funext fun a => Fin.ext (by
    match a with
    | ⟨0, _⟩ => rfl
    | ⟨1, _⟩ => show 2048 + q.val = q.val + 2048; omega))

/-- The column slice at offset 3072 reads the table at the output gate's column. -/
theorem slice_o (x0 x1 x3 : Arr.Idx → EReal) (x4 : Bias.Idx → EReal) (x5 : Arr.Idx → EReal) (b : Fin 4096) (q : Fin 1024) :
    val_main_v11 (F := Ideal) x0 x1 x3 x4 x5 (ix2 b q) = pre x0 x1 x3 x4 x5 b (colO q) := by
  rw [val_main_v11_apply, ← table_apply]
  exact congrArg _ (funext fun a => Fin.ext (by
    match a with
    | ⟨0, _⟩ => rfl
    | ⟨1, _⟩ => show 3072 + q.val = q.val + 3072; omega))

/-- The reference's second result is the cell's next cell state. -/
theorem cell_state (x0 x1 x2 x3 : Arr.Idx → EReal) (x4 : Bias.Idx → EReal) (x5 : Arr.Idx → EReal) :
    val_main_v33 (F := Ideal) x0 x1 x2 x3 x4 x5 = cNextArr x0 x1 x2 x3 x4 x5 := by
  funext i
  obtain ⟨b, q, rfl⟩ : ∃ (b : Fin 4096) (q : Fin 1024), i = ix2 b q := ⟨i 0, i 1, eq_ix2 i⟩
  rw [cNextArr_ix2, val_main_v33_apply, val_main_v31_apply, val_main_v32_apply, val_main_v23_apply, val_main_v17_apply,
    val_main_v24_apply, val_main_v22_apply, val_main_v16_apply, val_main_cst_2_apply, val_main_cst_0_apply,
    val_main_v21_apply, val_main_v15_apply, val_main_v20_apply, val_main_v14_apply, val_main_cst_1_apply, val_main_cst_apply,
    val_main_v19_apply, val_main_v13_apply, val_main_v18_apply, val_main_v12_apply, slice_f, slice_i, slice_g]
  simp only [Ideal.ofBits_def, one_f32, Ideal.hostDivf_def, Ideal.addf_def, Ideal.mulf_def, Ideal.hostUnary_exp_def,
    Ideal.hostUnary_tanh_def, Ideal.hostNegf_def, Ideal.negf_def, logistic_spelt]
  rfl

/-- The reference's first result is the cell's next hidden state. -/
theorem hidden_state (x0 x1 x2 x3 : Arr.Idx → EReal) (x4 : Bias.Idx → EReal) (x5 : Arr.Idx → EReal) :
    val_main_v35 (F := Ideal) x0 x1 x2 x3 x4 x5 = hNextArr x0 x1 x2 x3 x4 x5 := by
  funext i
  obtain ⟨b, q, rfl⟩ : ∃ (b : Fin 4096) (q : Fin 1024), i = ix2 b q := ⟨i 0, i 1, eq_ix2 i⟩
  rw [hNextArr_ix2, val_main_v35_apply, val_main_v34_apply, cell_state, cNextArr_ix2, val_main_v30_apply, val_main_v29_apply,
    val_main_cst_4_apply, val_main_v28_apply, val_main_v27_apply, val_main_cst_3_apply, val_main_v26_apply, val_main_v25_apply,
    slice_o]
  simp only [Ideal.ofBits_def, one_f32, Ideal.hostDivf_def, Ideal.addf_def, Ideal.mulf_def, Ideal.hostUnary_exp_def,
    Ideal.hostUnary_tanh_def, Ideal.hostNegf_def, Ideal.negf_def, logistic_spelt]
  rfl

end Cert.ReferenceIdeal.RefCell

end
-- ==== Proof.lean ====
/-
  One step of an LSTM cell, computed by a tiled kernel and by a plain reference, agree on the extended reals.

  Both programs compute, for a batch of 4096 rows and hidden width 1024, the table of pre-activations
  `h · Whᵀ + x · Wxᵀ + bh` (4096 columns, four gate groups of 1024), then
      c' = σ(forget) · c + σ(input) · tanh(candidate),     h' = σ(output) · tanh(c').
  The kernel walks 16 blocks of 256 rows, multiplies against weight matrices the host transposed beforehand (and
  rounded to bf16, which is the identity on extended reals), and adds the bias last; the reference multiplies whole
  matrices and adds the bias between the two products. The two tables differ only in the order of a three-term sum,
  and addition of extended reals is commutative and associative, so no finiteness of the inputs is used: the
  precondition is never opened.

  `Cell.lean` states the cell as one function of the six arrays; `KernelCell.lean` and `BlockEntry.lean` read one stored
  block of the kernel entry by entry; `KernelRun.lean` glues the 16 row blocks into the two result arrays;
  `RefCell.lean` reads the reference's two results; the claims below put the two runs side by side.
-/
import proofs.«144559_j41764261986629_2_alg».proof.Defs
import proofs.«144559_j41764261986629_2_alg».proof.Proof.Gen.Kernel
import proofs.«144559_j41764261986629_2_alg».proof.Proof.Gen.Kernel.Skeleton
import proofs.«144559_j41764261986629_2_alg».proof.Proof.Gen.Kernel.Launch
import proofs.«144559_j41764261986629_2_alg».proof.Proof.Gen.Kernel.Points
import proofs.«144559_j41764261986629_2_alg».proof.Proof.Gen.Kernel.Frame
import proofs.«144559_j41764261986629_2_alg».proof.Proof.Gen.KernelIdeal
import proofs.«144559_j41764261986629_2_alg».proof.Proof.Gen.KernelIdeal.Skeleton
import proofs.«144559_j41764261986629_2_alg».proof.Proof.Gen.KernelIdeal.Launch
import proofs.«144559_j41764261986629_2_alg».proof.Proof.Gen.KernelIdeal.Points
import proofs.«144559_j41764261986629_2_alg».proof.Proof.Gen.KernelIdeal.Frame
import proofs.«144559_j41764261986629_2_alg».proof.Proof.Gen.ReferenceIdeal
import proofs.«144559_j41764261986629_2_alg».proof.Proof.Gen.Pre_finite_inputs
import proofs.«144559_j41764261986629_2_alg».proof.Proof.Gen.KernelIdeal.Value
import proofs.«144559_j41764261986629_2_alg».proof.Proof.Gen.ReferenceIdeal.Run
import proofs.«144559_j41764261986629_2_alg».proof.Proof.Gen.ReferenceIdeal.Read
import proofs.«144559_j41764261986629_2_alg».proof.Proof.KernelRun
import proofs.«144559_j41764261986629_2_alg».proof.Proof.RefCell
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on extended reals. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the six arguments, both programs end with the cell's next hidden state and next cell
    state of those arguments. -/
theorem algebraic : Cert.algebraic_KernelIdeal_ReferenceIdeal := by
  intro m ρ m' ρ' _ hagree
  refine ⟨fun c => Cert.KernelIdeal.KernelRun.hiddenOf m c, fun c => Cert.KernelIdeal.KernelRun.cellOf m c,
    Cert.KernelIdeal.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v35_eq, Cert.ReferenceIdeal.RefCell.hidden_state, (hagree c).1, (hagree c).2.1,
      (hagree c).2.2.1, (hagree c).2.2.2.1, (hagree c).2.2.2.2.1, (hagree c).2.2.2.2.2]
  · rw [Cert.ReferenceIdeal.Read.val_main_v33_eq, Cert.ReferenceIdeal.RefCell.cell_state, (hagree c).1, (hagree c).2.1,
      (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
